-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x2048 : Shape := ⟨3, ![4, 2048, 2048]⟩
abbrev S2048x2048 : Shape := ⟨2, ![2048, 2048]⟩
abbrev S2048 : Shape := ⟨1, ![2048]⟩
abbrev S_ : Shape := ⟨0, ![]⟩

class Facts : Prop where
  bcast_S_S4x2048x2048 : S_.BroadcastsInDim S4x2048x2048 (![] : Fin 0 → Fin S4x2048x2048.rank)
  reducesTo_S4x2048x2048_S_d0_1_2 : S4x2048x2048.ReducesTo [0, 1, 2] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S4x2048x2048 .f32) (main_arg1 : FVec F S2048x2048 .f32) (main_arg2 : FVec F S2048 .f32) : IVec S_ 1 :=
  let main_v0 : FVec F S4x2048x2048 .f32 := Host.absf main_arg0
  let main_cst : FVec F S_ .f32 := constant S_ .f32 0x7F800000#32
  let main_v1 : FVec F S4x2048x2048 .f32 := broadcastInDim S4x2048x2048 ![] bcast_S_S4x2048x2048 main_cst
  let main_v2 : IVec S4x2048x2048 1 := cmpf .olt main_v0 main_v1
  let main_c : IVec S_ 1 := constantI S_ 1 1#1
  let main_v3 : IVec S_ 1 := (fun x v => Host.reduce IntOp.andi x v reducesTo_S4x2048x2048_S_d0_1_2 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  main_v13
-- ==== Kernel.lean ====
abbrev S4x2048x2048 : Shape := ⟨3, ![4, 2048, 2048]⟩
abbrev S2048x2048 : Shape := ⟨2, ![2048, 2048]⟩
abbrev S2048 : Shape := ⟨1, ![2048]⟩
abbrev S8192x2048 : Shape := ⟨2, ![8192, 2048]⟩
abbrev S1x2048 : Shape := ⟨2, ![1, 2048]⟩
abbrev S512x2048 : Shape := ⟨2, ![512, 2048]⟩
abbrev S1x4x2048x2048 : Shape := ⟨4, ![1, 4, 2048, 2048]⟩

abbrev nBuf : Space → Nat
  | .hbm => 7
  | .vmem => 7
  | .smem => 0
  | _ => 0

abbrev bufTy : (tb : Table) → Fin (tcTables nBuf tb) → BufTy
  | .hbm, ⟨0, _⟩ => ⟨S4x2048x2048, .f32⟩
  | .hbm, ⟨1, _⟩ => ⟨S2048x2048, .f32⟩
  | .hbm, ⟨2, _⟩ => ⟨S2048, .f32⟩
  | .hbm, ⟨3, _⟩ => ⟨S8192x2048, .f32⟩
  | .hbm, ⟨4, _⟩ => ⟨S1x2048, .f32⟩
  | .hbm, ⟨5, _⟩ => ⟨S8192x2048, .f32⟩
  | .hbm, ⟨6, _⟩ => ⟨S1x4x2048x2048, .f32⟩
  | .local _ .vmem, ⟨0, _⟩ => ⟨S512x2048, .f32⟩
  | .local _ .vmem, ⟨1, _⟩ => ⟨S512x2048, .f32⟩
  | .local _ .vmem, ⟨2, _⟩ => ⟨S2048x2048, .f32⟩
  | .local _ .vmem, ⟨3, _⟩ => ⟨S1x2048, .f32⟩
  | .local _ .vmem, ⟨4, _⟩ => ⟨S512x2048, .f32⟩
  | .local _ .vmem, ⟨5, _⟩ => ⟨S512x2048, .f32⟩
  | .local _ .vmem, ⟨6, _⟩ => ⟨S2048x2048, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S4x2048x2048_S8192x2048 : S4x2048x2048.ShapeCasts S8192x2048
  shapeCasts_S2048_S1x2048 : S2048.ShapeCasts S1x2048
  inb_S2048x2048_S2048x2048_0_0 : ∀ a, (![0, 0] : Fin 2 → Nat) a + S2048x2048.size a ≤ S2048x2048.size a
  h_S2048x2048 : 0 < S2048x2048.numel
  bitsLt_bf16_f32 : FTy.bits .bf16 < FTy.bits .f32
  shapeCasts_S2048x2048_S2048x2048 : S2048x2048.ShapeCasts S2048x2048
  packedbf16_S2048x2048_S2048x2048_0_0 : (Rect.unit (s := S2048x2048) ![0, 0] S2048x2048.size inb_S2048x2048_S2048x2048_0_0).PackedRows (EltTy.packing .bf16)
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  shapeCasts_S8192x2048_S1x4x2048x2048 : S8192x2048.ShapeCasts S1x4x2048x2048
  dot_S512x2048_S2048x2048_S512x2048_1_1_0_0_n_n_wf : DotDims.WF S512x2048 S2048x2048 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x2048.size a
  hwx0_0 : ∀ i : grid0.Coords, EltTy.bits .f32 = 32 ∨ (Rect.block (s := S8192x2048) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .f32 = 32 ∨ (Rect.block (s := S2048x2048) S2048x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S8192x2048.size a
  hwx0_3 : ∀ i : grid0.Coords, EltTy.bits .f32 = 32 ∨ (Rect.block (s := S8192x2048) S512x2048.size (cc0_transform_3 i) (hinb0_3 i)).WholeWords (EltTy.packing .f32)

variable [Facts₀]

def dot_S512x2048_S2048x2048_S512x2048_1_1_0_0_n_n : DotDims S512x2048 S2048x2048 S512x2048 where
  lhsContracting := [1]
  rhsContracting := [1]
  lhsNonContracting := [0]
  rhsNonContracting := [0]
  lhsBatch := []
  rhsBatch := []
  wf := dot_S512x2048_S2048x2048_S512x2048_1_1_0_0_n_n_wf

abbrev win0_0 : Pipeline.Window sig grid0 :=
  Pipeline.Window.ofSpec (Memref.whole main_v0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S512x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x2048x2048 : Shape := ⟨3, ![4, 2048, 2048]⟩
abbrev S2048x2048 : Shape := ⟨2, ![2048, 2048]⟩
abbrev S2048 : Shape := ⟨1, ![2048]⟩
abbrev S1x1x2048 : Shape := ⟨3, ![1, 1, 2048]⟩
abbrev S1x4x2048x2048 : Shape := ⟨4, ![1, 4, 2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S2048x2048, .f32⟩
  | .hbm, ⟨2, _⟩ => ⟨S2048, .f32⟩
  | .hbm, ⟨3, _⟩ => ⟨S4x2048x2048, .f32⟩
  | .hbm, ⟨4, _⟩ => ⟨S1x1x2048, .f32⟩
  | .hbm, ⟨5, _⟩ => ⟨S4x2048x2048, .f32⟩
  | .hbm, ⟨6, _⟩ => ⟨S4x2048x2048, .f32⟩
  | .hbm, ⟨7, _⟩ => ⟨S1x4x2048x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]

class Facts₀ : Prop where
  bcast_S2048_S1x1x2048_2 : S2048.BroadcastsInDim S1x1x2048 (![2] : Fin 1 → Fin S1x1x2048.rank)
  bcast_S1x1x2048_S4x2048x2048_0_1_2 : S1x1x2048.BroadcastsInDim S4x2048x2048 (![0, 1, 2] : Fin 3 → Fin S4x2048x2048.rank)
  bcast_S4x2048x2048_S1x4x2048x2048_1_2_3 : S4x2048x2048.BroadcastsInDim S1x4x2048x2048 (![1, 2, 3] : Fin 3 → Fin S1x4x2048x2048.rank)
  dot_S4x2048x2048_S2048x2048_S4x2048x2048_2_1_01_0_n_n_wf : DotDims.WF S4x2048x2048 S2048x2048 S4x2048x2048 [2] [1] [0, 1] [0] [] []

variable [Facts₀]

def dot_S4x2048x2048_S2048x2048_S4x2048x2048_2_1_01_0_n_n : DotDims S4x2048x2048 S2048x2048 S4x2048x2048 where
  lhsContracting := [2]
  rhsContracting := [1]
  lhsNonContracting := [0, 1]
  rhsNonContracting := [0]
  lhsBatch := []
  rhsBatch := []
  wf := dot_S4x2048x2048_S2048x2048_S4x2048x2048_2_1_01_0_n_n_wf

class Facts : Prop extends Facts₀ where

variable [Facts]
-- ==== Proof.Spec.lean ====
/-
  The specification: a dense linear layer over the extended reals, and its row-flattened form.

  For `X` of shape [4, 2048, 2048], a weight matrix `W` of shape [2048, 2048] (one row per output feature) and a bias
  `b` of length 2048, the result of shape [1, 4, 2048, 2048] is

      out[0, β, s, e] = ∑ₖ X[β, s, k] · W[e, k] + b[e].

  Flattening the two leading axes of `X` to 8192 rows (row β·2048 + s), with the bias as a 1 × 2048 row, the same
  numbers are the 8192 × 2048 matrix  rows[r, e] = ∑ₖ X'[r, k] · W[e, k] + b'[0, e],  and reshaping that matrix to
  [1, 4, 2048, 2048] gives `out` back: a reshape keeps row-major positions, and (β·2048 + s)·2048 + e is the position of
  (0, β, s, e). No law of arithmetic is used, only the re-indexing, so nothing here asks the entries to be finite.
-/
import Idealize.ShloMosaic.PureOps.Ideal
import Idealize.ShloMosaic.Lib.ValueIdx
import Idealize.ShloMosaic.Lib.Pipeline.Value

noncomputable section

open scoped BigOperators
open Idealize.ShloMosaic Idealize.ShloMosaic.ValueIdx

namespace Cert.Linear

abbrev SX : Shape := ⟨3, ![4, 2048, 2048]⟩
abbrev SW : Shape := ⟨2, ![2048, 2048]⟩
abbrev SB : Shape := ⟨1, ![2048]⟩
abbrev SRows : Shape := ⟨2, ![8192, 2048]⟩
abbrev SBRow : Shape := ⟨2, ![1, 2048]⟩
abbrev SOut : Shape := ⟨4, ![1, 4, 2048, 2048]⟩

/-- One entry of the layer: batch `β`, position `s`, output feature `e`. -/
def entry (X : SX.Idx → EReal) (W : SW.Idx → EReal) (b : SB.Idx → EReal) (β : Fin 4) (s : Fin 2048) (e : Fin 2048) : EReal :=
  (∑ k : Fin 2048, X (ix3 β s k) * W (ix2 e k)) + b (ix1 e)

/-- THE RESULT, of shape [1, 4, 2048, 2048]. -/
def affine (X : SX.Idx → EReal) (W : SW.Idx → EReal) (b : SB.Idx → EReal) : SOut.Idx → EReal :=
  fun i => entry X W b ⟨(i 1).val, (i 1).isLt⟩ ⟨(i 2).val, (i 2).isLt⟩ ⟨(i 3).val, (i 3).isLt⟩

/-- One entry of the row-flattened form: row `r` of the 8192, output feature `e`. -/
def rowEntry (X' : SRows.Idx → EReal) (W : SW.Idx → EReal) (b' : SBRow.Idx → EReal) (r : Fin 8192) (e : Fin 2048) : EReal :=
  (∑ k : Fin 2048, X' (ix2 r k) * W (ix2 e k)) + b' (ix2 (0 : Fin 1) e)

/-- THE ROW-FLATTENED FORM, of shape [8192, 2048]. -/
def rows (X' : SRows.Idx → EReal) (W : SW.Idx → EReal) (b' : SBRow.Idx → EReal) : SRows.Idx → EReal :=
  fun i => rowEntry X' W b' ⟨(i 0).val, (i 0).isLt⟩ ⟨(i 1).val, (i 1).isLt⟩

/-- Reshaping the row-flattened form of the reshaped arguments gives the result: entry (0, β, s, e) is row
    β·2048 + s, column e; that row of the flattened `X` is `X[β, s, ·]`; the bias row's entry (0, e) is `b[e]`. -/
theorem reshape_rows (X : SX.Idx → EReal) (W : SW.Idx → EReal) (b : SB.Idx → EReal)
    (hX : SX.ShapeCasts SRows) (hb : SB.ShapeCasts SBRow) (hO : SRows.ShapeCasts SOut) :
    shapeCast SOut (rows (shapeCast SRows X hX) W (shapeCast SBRow b hb)) hO = affine X W b := by
  funext i
  have h0 : (i 0).val < 1 := (i 0).isLt
  have h1 : (i 1).val < 4 := (i 1).isLt
  have h2 : (i 2).val < 2048 := (i 2).isLt
  have h3 : (i 3).val < 2048 := (i 3).isLt
  have hr : (i 1).val * 2048 + (i 2).val < 8192 := by omega
  rw [shapeCast_apply _ hO i (ix2 (⟨(i 1).val * 2048 + (i 2).val, hr⟩ : Fin 8192) (⟨(i 3).val, h3⟩ : Fin 2048)) (by
    rw [Shape.rowMajor_val_two, Shape.rowMajor_val_four]
    show ((i 1).val * 2048 + (i 2).val) * 2048 + (i 3).val = (((i 0).val * 4 + (i 1).val) * 2048 + (i 2).val) * 2048 + (i 3).val
    omega)]
  show rowEntry _ W _ ⟨(i 1).val * 2048 + (i 2).val, hr⟩ ⟨(i 3).val, h3⟩ = entry X W b ⟨(i 1).val, h1⟩ ⟨(i 2).val, h2⟩ ⟨(i 3).val, h3⟩
  unfold rowEntry entry
  refine congrArg₂ (· + ·) (Finset.sum_congr rfl fun k _ => congrArg₂ (· * ·) ?_ rfl) ?_
  · exact shapeCast_apply X hX _ _ (by
      rw [Shape.rowMajor_val_three, Shape.rowMajor_val_two]
      show ((i 1).val * 2048 + (i 2).val) * 2048 + k.val = ((i 1).val * 2048 + (i 2).val) * 2048 + k.val
      rfl)
  · exact shapeCast_apply b hb _ _ (by
      rw [Shape.rowMajor_val_one, Shape.rowMajor_val_two]
      show (i 3).val = 0 * 2048 + (i 3).val
      omega)

end Cert.Linear

end
-- ==== Proof.Pieces.lean ====
/-
  What one run of the kernel body leaves behind, read as values (for any float instance).

  The body has two control cases. At the grid's first point it first copies the weight matrix, narrowed to bf16,
  into a scratch matrix, and then computes; at every later point it only computes, reading the scratch matrix the
  first point filled. In both cases the output block is the one whole-block store of
  `x · wᵀ + bias` (the payload `k0_pay2`) of the row block `x`, the scratch matrix `w` and the bias row, and the
  scratch matrix, when it is written, is the one whole-matrix store of the narrowed weights (the payload `k0_pay1`).
  Each store covers its buffer through the rectangle at offset zero of the buffer's own extents, so what the buffer
  holds afterwards is the store's payload, and each load through such a rectangle reads the buffer's contents.
-/
import proofs.«134843_g13804024889374_cont_week2b_70_4_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

/-- The zero offsets of a rank-2 rectangle, however they are spelt. -/
theorem hz : (![0, 0] : Fin 2 → Nat) = fun _ => 0 := funext fun a => by fin_cases a <;> rfl

/-- A LATER POINT (the scratch matrix already holds `w`): the output block is `x · wᵀ + bias` of the row block `x`,
    the scratch contents `w` and the bias row — its one covering store's payload over the three whole-buffer loads. -/
theorem out_later (c : Dev nD) (i : grid0.Coords) (a1 : Memref sig .tc .vmem S512x2048 .f32) (h1 : a1.IsWhole)
    (a2 : Memref sig .tc .vmem S2048x2048 .f32) (h2 : a2.IsWhole) (a3 : Memref sig .tc .vmem S1x2048 .f32) (h3 : a3.IsWhole)
    (a4 : Memref sig .tc .vmem S512x2048 .f32) (h4 : a4.IsWhole) (a5 : Memref sig .tc .vmem S2048x2048 .bf16) (h5 : a5.IsWhole)
    (hc : ¬cond0_0 i) (x : Vec F S512x2048 .f32) (wt : Vec F S2048x2048 .f32) (bias : Vec F S1x2048 .f32)
    (w : Vec F S2048x2048 .bf16) :
    out0_B_3 c i a1 h1 a2 h2 a3 h3 a4 h4 a5 h5 hc x wt bias w = k0_pay2 x w bias := by
  unfold out0_B_3
  rw [View.read_writes_eq_canon _ _ _ (cover0_B_3 c i a1 h1 a2 h2 a3 h3 a4 h4 a5 h5 hc x wt bias w)]
  unfold kernelRun0_B
  dsimp only
  rw [View.canon_unit_zero hz]
  simp only [View.readAt_eq_ld, h1.read_unread, h3.read_unread, h5.read_unread, View.ld_unit_zero (S := S512x2048) hz,
    View.ld_unit_zero (S := S2048x2048) hz, View.ld_unit_zero (S := S1x2048) hz]

/-- THE FIRST POINT: the scratch matrix is first filled with the narrowed weights and then read back, so the output
    block is `x · wᵀ + bias` with `w` the narrowed weights — the read-back of the one covering store is its payload. -/
theorem out_first (c : Dev nD) (i : grid0.Coords) (a1 : Memref sig .tc .vmem S512x2048 .f32) (h1 : a1.IsWhole)
    (a2 : Memref sig .tc .vmem S2048x2048 .f32) (h2 : a2.IsWhole) (a3 : Memref sig .tc .vmem S1x2048 .f32) (h3 : a3.IsWhole)
    (a4 : Memref sig .tc .vmem S512x2048 .f32) (h4 : a4.IsWhole) (a5 : Memref sig .tc .vmem S2048x2048 .bf16) (h5 : a5.IsWhole)
    (hc : cond0_0 i) (x : Vec F S512x2048 .f32) (wt : Vec F S2048x2048 .f32) (bias : Vec F S1x2048 .f32) :
    out0_A_3 c i a1 h1 a2 h2 a3 h3 a4 h4 a5 h5 hc x wt bias = k0_pay2 x (k0_pay1 wt) bias := by
  unfold out0_A_3
  rw [View.read_writes_eq_canon _ _ _ (cover0_A_3 c i a1 h1 a2 h2 a3 h3 a4 h4 a5 h5 hc x wt bias)]
  unfold kernelRun0_A
  dsimp only
  sl_unfold_words
  rw [View.canon_unit_zero hz, View.readCov_unit_zero (S := S2048x2048) _ hz]
  simp only [View.readAt_eq_ld, h1.read_unread, h2.read_unread, h3.read_unread, View.ld_unit_zero (S := S512x2048) hz,
    View.ld_unit_zero (S := S2048x2048) hz, View.ld_unit_zero (S := S1x2048) hz]

/-- THE FIRST POINT leaves the narrowed weights in the scratch matrix. -/
theorem scratch_first (c : Dev nD) (i : grid0.Coords) (a1 : Memref sig .tc .vmem S512x2048 .f32) (h1 : a1.IsWhole)
    (a2 : Memref sig .tc .vmem S2048x2048 .f32) (h2 : a2.IsWhole) (a3 : Memref sig .tc .vmem S1x2048 .f32) (h3 : a3.IsWhole)
    (a4 : Memref sig .tc .vmem S512x2048 .f32) (h4 : a4.IsWhole) (a5 : Memref sig .tc .vmem S2048x2048 .bf16) (h5 : a5.IsWhole)
    (hc : cond0_0 i) (x : Vec F S512x2048 .f32) (wt : Vec F S2048x2048 .f32) (bias : Vec F S1x2048 .f32) :
    sout0_A_0 c i a1 h1 a2 h2 a3 h3 a4 h4 a5 h5 hc x wt bias = k0_pay1 wt := by
  unfold sout0_A_0
  rw [View.read_writes_eq_canon _ _ _ (scover0_A_0 c i a1 h1 a2 h2 a3 h3 a4 h4 a5 h5 hc x wt bias)]
  unfold kernelRun0_A
  dsimp only
  sl_unfold_words
  rw [View.canon_unit_zero hz]
  simp only [View.readAt_eq_ld, h2.read_unread, View.ld_unit_zero (S := S2048x2048) hz]

end Cert.KernelIdeal.Pieces

end
-- ==== Proof.Carried.lean ====
/-
  What the output's staging block and the scratch matrix hold after each grid point (for any float instance).

  The scratch matrix is written at the first point only and never again, so after EVERY point it holds the narrowed
  weights the first point stored (induction on the point: a later point hands on what the point before left). Hence
  the output block after point `t` is `x_t · wᵀ + bias` with `x_t` the point's row block and `w` those narrowed
  weights — at the first point because the body reads back what it has just stored, at a later point because it reads
  the scratch matrix the earlier points left.
-/
import proofs.«134843_g13804024889374_cont_week2b_70_4_alg».proof.Proof.Pieces

noncomputable section

open Idealize.ShloMosaic Idealize.ShloMosaic.TcCoe Idealize.SL.Sem

namespace Cert.KernelIdeal.Carried

open Cert.KernelIdeal Cert.KernelIdeal.Gen Cert.KernelIdeal.Pieces

variable {F : FTy → Type} [FloatOps F]
variable (m : (ℓ : Loc nD τ sig) → Buf (Elt F) ℓ)

theorem first_lt : 0 < cfg0.N := by rw [show cfg0.N = 16 from N_0]; decide

/-- The grid's first point, the one that fills the scratch matrix. -/
abbrev first : Fin cfg0.N := ⟨0, first_lt⟩

/-- At the first point the scratch matrix ends at the narrowed weight block of that point. -/
theorem scratch_at_first (c : Dev nD) (t : Fin cfg0.N) (h0 : t.val % 16 = 0) :
    (outsAt0 m c t.val t.isLt).2 = k0_pay1 (iblk m c 1 t) := by
  rw [outsAt0_A m c t h0]
  dsimp only
  exact scratch_first (F := F) c (grid0.coords t) (ms0_0 t) (hs0_0 t) (ms0_1 t) (hs0_1 t) (ms0_2 t) (hs0_2 t) (ms0_3 t) (hs0_3 t)
    scM0_0 (Memref.isWhole_whole _) ((hcond0_0 t).mpr h0) (iblk m c 0 t) (iblk m c 1 t) (iblk m c 2 t)

/-- A later point stores nothing into the scratch matrix: it holds what the point before left. -/
theorem scratch_at_later (c : Dev nD) (t : Fin cfg0.N) (h0 : ¬t.val % 16 = 0) :
    (outsAt0 m c t.val t.isLt).2 = (outsAt0 m c (t.val - 1) (Nat.lt_of_le_of_lt (Nat.sub_le _ _) t.isLt)).2 :=
  (congrArg Prod.snd (outsAt0_B m c t h0)).trans rfl

/-- So after every point the scratch matrix holds the narrowed weights the first point stored. -/
theorem scratch_eq (c : Dev nD) : ∀ (n : ℕ) (h : n < cfg0.N), (outsAt0 m c n h).2 = k0_pay1 (iblk m c 1 first)
  | 0, h => scratch_at_first m c ⟨0, h⟩ rfl
  | n + 1, h => by
    have hN : cfg0.N = 16 := N_0
    have hB : ¬(⟨n + 1, h⟩ : Fin cfg0.N).val % 16 = 0 := by dsimp only; omega
    exact (scratch_at_later m c ⟨n + 1, h⟩ hB).trans (scratch_eq c n _)

/-- The output block after the first point: the product with the weights just narrowed, plus the bias. -/
theorem out_at_first (c : Dev nD) (t : Fin cfg0.N) (h0 : t.val % 16 = 0) :
    (outsAt0 m c t.val t.isLt).1 = k0_pay2 (iblk m c 0 t) (k0_pay1 (iblk m c 1 t)) (iblk m c 2 t) := by
  rw [outsAt0_A m c t h0]
  dsimp only
  exact out_first (F := F) c (grid0.coords t) (ms0_0 t) (hs0_0 t) (ms0_1 t) (hs0_1 t) (ms0_2 t) (hs0_2 t) (ms0_3 t) (hs0_3 t)
    scM0_0 (Memref.isWhole_whole _) ((hcond0_0 t).mpr h0) (iblk m c 0 t) (iblk m c 1 t) (iblk m c 2 t)

/-- The output block after a later point: the product with what the point before left in the scratch matrix, plus the bias. -/
theorem out_at_later (c : Dev nD) (t : Fin cfg0.N) (h0 : ¬t.val % 16 = 0) :
    (outsAt0 m c t.val t.isLt).1
      = k0_pay2 (iblk m c 0 t) (outsAt0 m c (t.val - 1) (Nat.lt_of_le_of_lt (Nat.sub_le _ _) t.isLt)).2 (iblk m c 2 t) := by
  refine (congrArg Prod.fst (outsAt0_B m c t h0)).trans ?_
  dsimp only
  exact out_later (F := F) c (grid0.coords t) (ms0_0 t) (hs0_0 t) (ms0_1 t) (hs0_1 t) (ms0_2 t) (hs0_2 t) (ms0_3 t) (hs0_3 t)
    scM0_0 (Memref.isWhole_whole _) (fun h => h0 ((hcond0_0 t).mp h)) (iblk m c 0 t) (iblk m c 1 t) (iblk m c 2 t)
    (outsAt0 m c (t.val - 1) (Nat.lt_of_le_of_lt (Nat.sub_le _ _) t.isLt)).2

/-- AFTER EVERY POINT the output block is `x_t · wᵀ + bias` with `w` the weights the first point narrowed. -/
theorem out_eq (c : Dev nD) (t : Fin cfg0.N) :
    (outsAt0 m c t.val t.isLt).1 = k0_pay2 (iblk m c 0 t) (k0_pay1 (iblk m c 1 first)) (iblk m c 2 t) := by
  have hN : cfg0.N = 16 := N_0
  by_cases h0 : t.val % 16 = 0
  · have ht : t = first := Fin.ext (by have := t.isLt; show t.val = 0; omega)
    subst ht
    exact out_at_first m c first h0
  · exact (out_at_later m c t h0).trans (congrArg (fun w => k0_pay2 (iblk m c 0 t) w (iblk m c 2 t)) (scratch_eq m c _ _))

end Cert.KernelIdeal.Carried

end
-- ==== Proof.Payload.lean ====
/-
  The body's arithmetic read at one element, over the extended reals.

  At the exact instance a change of float format is the identity, a matrix product into a zero accumulator is the plain
  sum of products over the contracted axis, and a broadcast of the bias row along the rows reads the row's entry of the
  same column. The product contracts axis 1 of the row block with axis 1 of the weight matrix, so the element in row
  `p` and column `q` of a block is  ∑ₖ x[p,k] · w[q,k] + bias[0,q].
-/
import proofs.«134843_g13804024889374_cont_week2b_70_4_alg».proof.Proof.Gen.KernelIdeal.Skeleton
import Idealize.ShloMosaic.Lib.Pipeline.Value
import Idealize.ShloMosaic.Lib.ValueIdx
import Idealize.ShloMosaic.PureOps.Ideal.Laws

noncomputable section

open Idealize.ShloMosaic Idealize.ShloMosaic.ValueIdx

namespace Cert.KernelIdeal.Payload

open Cert.KernelIdeal Cert.KernelIdeal.Gen

/-- Narrowing the weights to bf16 changes nothing at the exact instance. -/
theorem narrowed (wt : Vec Ideal S2048x2048 .f32) : k0_pay1 (F := Ideal) wt = wt := by
  unfold k0_pay1
  exact shapeCast_self _ _

/-- The product's operand indices, coordinate by coordinate: the left operand is read at (output row, contracted
    coordinate), the right one at (output column, contracted coordinate). -/
theorem lhs_row (i : S512x2048.Idx) (q : dot_S512x2048_S2048x2048_S512x2048_1_1_0_0_n_n.contr.Idx) :
    (dot_S512x2048_S2048x2048_S512x2048_1_1_0_0_n_n.lhsIdx i q 0).val = (i 0).val := by
  unfold DotDims.lhsIdx
  rw [dif_neg (show ¬(0 : Fin S512x2048.rank) ∈ dot_S512x2048_S2048x2048_S512x2048_1_1_0_0_n_n.lhsBatch by decide), dif_pos (show (0 : Fin S512x2048.rank) ∈ dot_S512x2048_S2048x2048_S512x2048_1_1_0_0_n_n.lhsNonContracting by decide)]
  rfl
theorem lhs_col (i : S512x2048.Idx) (q : dot_S512x2048_S2048x2048_S512x2048_1_1_0_0_n_n.contr.Idx) :
    (dot_S512x2048_S2048x2048_S512x2048_1_1_0_0_n_n.lhsIdx i q 1).val = (q ⟨0, by decide⟩).val :=
  dot_S512x2048_S2048x2048_S512x2048_1_1_0_0_n_n.lhsIdx_val_of_single rfl i q
theorem rhs_row (i : S512x2048.Idx) (q : dot_S512x2048_S2048x2048_S512x2048_1_1_0_0_n_n.contr.Idx) :
    (dot_S512x2048_S2048x2048_S512x2048_1_1_0_0_n_n.rhsIdx i q 0).val = (i 1).val := by
  unfold DotDims.rhsIdx
  rw [dif_neg (show ¬(0 : Fin S2048x2048.rank) ∈ dot_S512x2048_S2048x2048_S512x2048_1_1_0_0_n_n.rhsBatch by decide), dif_pos (show (0 : Fin S2048x2048.rank) ∈ dot_S512x2048_S2048x2048_S512x2048_1_1_0_0_n_n.rhsNonContracting by decide)]
  rfl
theorem rhs_col (i : S512x2048.Idx) (q : dot_S512x2048_S2048x2048_S512x2048_1_1_0_0_n_n.contr.Idx) :
    (dot_S512x2048_S2048x2048_S512x2048_1_1_0_0_n_n.rhsIdx i q 1).val = (q ⟨0, by decide⟩).val :=
  dot_S512x2048_S2048x2048_S512x2048_1_1_0_0_n_n.rhsIdx_val_of_single rfl i q

/-- The matrix product into the zero accumulator at (p, q): the sum over the contracted coordinate, re-indexed from the
    contraction's one-axis index set to `Fin 2048`. -/
theorem product_at (x : FVec Ideal S512x2048 .bf16) (w : FVec Ideal S2048x2048 .bf16) (p : Fin 512) (q : Fin 2048) :
    matmul dot_S512x2048_S2048x2048_S512x2048_1_1_0_0_n_n none x w (constant (F := Ideal) S512x2048 .f32 0x00000000#32) (ix2 p q)
      = ∑ k : Fin 2048, x (ix2 p k) * w (ix2 q k) := by
  refine (Ideal.matmul_constant_zero_apply dot_S512x2048_S2048x2048_S512x2048_1_1_0_0_n_n none x w (ix2 p q)).trans ?_
  rw [← Equiv.sum_comp (contrEquiv1 dot_S512x2048_S2048x2048_S512x2048_1_1_0_0_n_n 2048 rfl rfl).symm]
  refine Finset.sum_congr rfl fun k _ => ?_
  have hk := contrEquiv1_symm_val dot_S512x2048_S2048x2048_S512x2048_1_1_0_0_n_n 2048 rfl rfl k
  have el : dot_S512x2048_S2048x2048_S512x2048_1_1_0_0_n_n.lhsIdx (ix2 p q) ((contrEquiv1 dot_S512x2048_S2048x2048_S512x2048_1_1_0_0_n_n 2048 rfl rfl).symm k) = ix2 p k := funext fun a => Fin.ext (by
    match a with
    | ⟨0, _⟩ => exact lhs_row _ _
    | ⟨1, _⟩ => exact (lhs_col _ _).trans hk)
  have er : dot_S512x2048_S2048x2048_S512x2048_1_1_0_0_n_n.rhsIdx (ix2 p q) ((contrEquiv1 dot_S512x2048_S2048x2048_S512x2048_1_1_0_0_n_n 2048 rfl rfl).symm k) = ix2 q k := funext fun a => Fin.ext (by
    match a with
    | ⟨0, _⟩ => exact rhs_row _ _
    | ⟨1, _⟩ => exact (rhs_col _ _).trans hk)
  rw [el, er]

/-- The bias row broadcast along the rows reads the row's entry of the same column. -/
theorem bias_at (bias : Vec Ideal S1x2048 .f32) (p : Fin 512) (q : Fin 2048) :
    broadcastTo S512x2048 (shapeCast S1x2048 bias shapeCasts_S1x2048_S1x2048) broadcasts_S1x2048_S512x2048 (ix2 p q) = bias (ix2 0 q) := by
  rw [shapeCast_self]
  exact broadcastTo_apply bias broadcasts_S1x2048_S512x2048 (ix2 p q) (ix2 0 q) (fun a => match a with
    | ⟨0, _⟩ => by show 0 = if (1 : Nat) = 1 then 0 else p.val; rw [if_pos rfl]
    | ⟨1, _⟩ => by show q.val = if (2048 : Nat) = 1 then 0 else q.val; rw [if_neg (by decide)])

/-- THE BLOCK at (p, q):  ∑ₖ x[p,k] · w[q,k] + bias[0,q]. -/
theorem block_at (x : Vec Ideal S512x2048 .f32) (w : Vec Ideal S2048x2048 .bf16) (bias : Vec Ideal S1x2048 .f32) (p : Fin 512) (q : Fin 2048) :
    k0_pay2 (F := Ideal) x w bias (ix2 p q) = (∑ k : Fin 2048, x (ix2 p k) * w (ix2 q k)) + bias (ix2 0 q) := by
  unfold k0_pay2
  refine congrArg₂ (· + ·) ?_ (bias_at bias p q)
  rw [shapeCast_self]
  exact product_at (truncf .bf16 x bitsLt_bf16_f32) w p q

end Cert.KernelIdeal.Payload

end
-- ==== Proof.Blocks.lean ====
/-
  From blocks to the array: after the run the kernel's 8192 × 2048 result holds the row-flattened form of the arrays the
  region found (over the extended reals).

  Point `t` of the 16 writes back rows 512·t … 512·t + 511. Its row block of the input is rows 512·t … of the flattened
  input; the weight matrix and the bias row are whole, the same at every point. So the block a point writes back is
  the restriction of ONE 8192 × 2048 matrix, `rows`, to the point's rows: element (p, q) of the block is
  ∑ₖ X'[512·t + p, k] · W[q, k] + b'[0, q]. Every row lies in the block of point ⌊row / 512⌋, so the blocks cover the array.
-/
import proofs.«134843_g13804024889374_cont_week2b_70_4_alg».proof.Proof.Spec
import proofs.«134843_g13804024889374_cont_week2b_70_4_alg».proof.Proof.Carried
import proofs.«134843_g13804024889374_cont_week2b_70_4_alg».proof.Proof.Payload

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen Cert.KernelIdeal.Carried Cert.KernelIdeal.Payload Cert.Linear

/-- One element of a block, given where the block's operands sit in the arrays: if row `p` of the row block is row `r`
    of `X'`, row `q` of the weights is row `e` of `W` and the bias entries agree, the element is entry (r, e) of the
    row-flattened form. -/
theorem point_value (X : S8192x2048.Idx → EReal) (W : S2048x2048.Idx → EReal) (B : S1x2048.Idx → EReal)
    (x : Vec Ideal S512x2048 .f32) (wt : Vec Ideal S2048x2048 .f32) (bias : Vec Ideal S1x2048 .f32)
    (p : Fin 512) (q : Fin 2048) (r : Fin 8192) (e : Fin 2048)
    (hx : ∀ k : Fin 2048, x (ix2 p k) = X (ix2 r k))
    (hw : ∀ k : Fin 2048, wt (ix2 q k) = W (ix2 e k))
    (hb : bias (ix2 (0 : Fin 1) q) = B (ix2 (0 : Fin 1) e)) :
    k0_pay2 (F := Ideal) x (k0_pay1 wt) bias (ix2 p q) = rowEntry X W B r e := by
  rw [block_at, narrowed]
  unfold rowEntry
  exact congrArg₂ (· + ·) (Finset.sum_congr rfl fun k _ => congrArg₂ (· * ·) (hx k) (hw k)) hb

variable (m : (ℓ : Loc nD τ sig) → Buf (Elt Ideal) ℓ) (ρ : Dev nD → PrngReg)

/-- The windows' block indices, decided once over the grid: the input's row block moves with the output's, which is the
    point's number; the weights' and the bias' blocks stay at the origin; no window moves along the columns. -/
theorem idx_facts : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- WHAT POINT `t` WRITES BACK is block `t` of the row-flattened form of the arrays the region found: a block's
    coordinate in its array is the block index times the block extent plus the coordinate inside the block. -/
theorem flushed_eq (c : Dev nD) (t : Fin cfg0.N) :
    (dats m 0 c).flushed 3 t
      = ((cfg0.win 3).blk t).view.read (Elt Ideal) (rows (V m c main_v0) (V m c main_arg1) (V m c main_v1)) := by
  show (cfg0.win 3).cut (grid0.coords t) ((dats m 0 c).after 3 t) = _
  rw [after0_3, out_eq]
  obtain ⟨e00, e01, -, -, e20, e21, e30, e31⟩ := idx_facts t
  obtain ⟨-, -, f10, f11, -⟩ := idx_facts first
  funext j
  have hj0 : (j 0).val < 512 := (j 0).isLt
  have hj1 : (j 1).val < 2048 := (j 1).isLt
  have ej : j = ix2 (⟨(j 0).val, hj0⟩ : Fin 512) (⟨(j 1).val, hj1⟩ : Fin 2048) :=
    funext fun a => by match a with | ⟨0, _⟩ => rfl | ⟨1, _⟩ => rfl
  refine (congrArg (k0_pay2 (iblk m c 0 t) (k0_pay1 (iblk m c 1 first)) (iblk m c 2 t)) ej).trans ?_
  show _ = rowEntry (V m c main_v0) (V m c main_arg1) (V m c main_v1)
    ⟨((((cfg0.win 3).blk t).view.emb j) 0).val, ((((cfg0.win 3).blk t).view.emb j) 0).isLt⟩
    ⟨((((cfg0.win 3).blk t).view.emb j) 1).val, ((((cfg0.win 3).blk t).view.emb j) 1).isLt⟩
  refine point_value _ _ _ _ _ _ ⟨(j 0).val, hj0⟩ ⟨(j 1).val, hj1⟩ _ _ (fun k => ?_) (fun k => ?_) ?_
  · show V m c main_v0 (((cfg0.win 0).blk t).view.emb (ix2 (⟨(j 0).val, hj0⟩ : Fin 512) k)) = V m c main_v0 _
    refine congrArg _ (funext fun a => Fin.ext ?_)
    match a with
    | ⟨0, _⟩ => show win0_0.index t (0 : Fin 2) * 512 + 1 * (j 0).val = win0_3.index t (0 : Fin 2) * 512 + 1 * (j 0).val; omega
    | ⟨1, _⟩ => show win0_0.index t (1 : Fin 2) * 2048 + 1 * k.val = k.val; omega
  · show V m c main_arg1 (((cfg0.win 1).blk first).view.emb (ix2 (⟨(j 1).val, hj1⟩ : Fin 2048) k)) = V m c main_arg1 _
    refine congrArg _ (funext fun a => Fin.ext ?_)
    match a with
    | ⟨0, _⟩ => show win0_1.index first (0 : Fin 2) * 2048 + 1 * (j 1).val = win0_3.index t (1 : Fin 2) * 2048 + 1 * (j 1).val; omega
    | ⟨1, _⟩ => show win0_1.index first (1 : Fin 2) * 2048 + 1 * k.val = k.val; omega
  · show V m c main_v1 (((cfg0.win 2).blk t).view.emb (ix2 (0 : Fin 1) (⟨(j 1).val, hj1⟩ : Fin 2048))) = V m c main_v1 _
    refine congrArg _ (funext fun a => Fin.ext ?_)
    match a with
    | ⟨0, _⟩ => show win0_2.index t (0 : Fin 2) * 1 + 1 * 0 = 0; omega
    | ⟨1, _⟩ => show win0_2.index t (1 : Fin 2) * 2048 + 1 * (j 1).val = win0_3.index t (1 : Fin 2) * 2048 + 1 * (j 1).val; omega

/-- An index of the result is in point `t`'s block iff each coordinate is in the block's range on its axis. -/
theorem mem_blk (t : Fin cfg0.N) (i : S8192x2048.Idx) :
    i ∈ ((cfg0.win 3).blk t).view.set ↔ ∀ a : Fin 2, win0_3.index t a * S512x2048.size a ≤ (i a).val ∧ (i a).val < win0_3.index t a * S512x2048.size a + S512x2048.size a := by
  show i ∈ ((View.whole main_v2).slice (win0_3.rect t)).set ↔ _
  rw [View.set_slice_whole, Rect.mem_set_unit]
  exact Iff.rfl

/-- Every index is in the block of the point that owns its row. -/
theorem covered (i : S8192x2048.Idx) :
    ∃ t : Fin cfg0.N, (cfg0.win 3).flush t = true ∧ i ∈ ((cfg0.win 3).blk t).view.set := by
  have hN : cfg0.N = 16 := N_0
  have hi0 : (i 0).val < 8192 := (i 0).isLt
  have hi1 : (i 1).val < 2048 := (i 1).isLt
  obtain ⟨t, ht⟩ : ∃ t : Fin cfg0.N, t.val = (i 0).val / 512 := ⟨⟨(i 0).val / 512, by omega⟩, rfl⟩
  obtain ⟨-, -, -, -, -, -, e30, e31⟩ := idx_facts t
  refine ⟨t, flush0_3 t, ?_⟩
  rw [mem_blk]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 2048 ≤ (i 1).val ∧ (i 1).val < win0_3.index t (1 : Fin 2) * 2048 + 2048; omega

/-- THE RESULT ARRAY after the run is the row-flattened form. -/
theorem final (c : Dev nD) :
    (dats m 0 c).arrAt 3 cfg0.N = rows (V m c main_v0) (V m c main_arg1) (V m c main_v1) :=
  (dats m 0 c).arrAt_eq_of_cover 3 _ (fun t _ => flushed_eq m c t) covered

end Cert.KernelIdeal.Blocks

end
-- ==== Proof.Whole.lean ====
/-
  The whole kernel program over the extended reals: reshape, the 16-point region, reshape back.

  Before the region the host flattens `X` to 8192 rows and views the bias as a 1 × 2048 row; the region leaves the
  row-flattened form of those two and the weights in its 8192 × 2048 result; after the region the host reshapes that
  result to [1, 4, 2048, 2048]. A reshape keeps row-major positions, so the final array is the dense linear layer of
  the three arguments (Spec: `reshape_rows`). The arguments themselves end as they were launched.
-/
import proofs.«134843_g13804024889374_cont_week2b_70_4_alg».proof.Proof.Blocks
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.Whole

open Cert.KernelIdeal Cert.KernelIdeal.Gen Cert.KernelIdeal.Blocks Cert.Linear

variable (m : (ℓ : Loc nD τ sig) → Buf (Elt Ideal) ℓ) (ρ : Dev nD → PrngReg)

/-- The region finds `X` flattened to 8192 rows. -/
theorem entry_rows (c : Dev nD) :
    (V m c main_v0 : S8192x2048.Idx → EReal)
      = shapeCast S8192x2048 (m ((c : Thread nD τ).loc main_arg0)) shapeCasts_S4x2048x2048_S8192x2048 := by
  show StableHlo.after hostOps0 (fun b => m (c, b)) (Proc.devRef .tc main_v0) = _
  after_results
  rfl

/-- The region finds the bias as a 1 × 2048 row. -/
theorem entry_bias (c : Dev nD) :
    (V m c main_v1 : S1x2048.Idx → EReal)
      = shapeCast S1x2048 (m ((c : Thread nD τ).loc main_arg2)) shapeCasts_S2048_S1x2048 := by
  show StableHlo.after hostOps0 (fun b => m (c, b)) (Proc.devRef .tc main_v1) = _
  after_results
  rfl

/-- The program's result, the reshape of the region's result array, is the layer of the launched arguments. -/
theorem tail_eq (c : Dev nD) :
    Pipeline.afterTail₀ cfgs (dats m) 0 (V0 m) [hostOps1] c main_v3
      = affine (m ((c : Thread nD τ).loc main_arg0)) (m ((c : Thread nD τ).loc main_arg1)) (m ((c : Thread nD τ).loc main_arg2)) := by
  unfold Pipeline.afterTail₀
  show StableHlo.after hostOps1 _ (Proc.devRef .tc main_v3) = _
  after_results
  have hA : Pipeline.withArrays (cfgs 0).spec c (V0 m c) (fun w => (dats m 0 c).arrAt w (cfgs 0).N) (Proc.tc.devRef main_v2)
      = rows (V m c main_v0) (V m c main_arg1) (V m c main_v1) :=
    (Pipeline.withArrays_arr spec0 launch0.win.arr_inj c _ _ 3).trans (final m c)
  have hfin : rows (V m c main_v0) (V m c main_arg1) (V m c main_v1)
      = rows (shapeCast S8192x2048 (m ((c : Thread nD τ).loc main_arg0)) shapeCasts_S4x2048x2048_S8192x2048)
          (m ((c : Thread nD τ).loc main_arg1))
          (shapeCast S1x2048 (m ((c : Thread nD τ).loc main_arg2)) shapeCasts_S2048_S1x2048) := by
    rw [entry_rows, entry_bias, V_main_arg1]
  exact (congrArg (fun a => shapeCast S1x4x2048x2048 a shapeCasts_S8192x2048_S1x4x2048x2048) (hA.trans hfin)).trans
    (reshape_rows _ _ _ shapeCasts_S4x2048x2048_S8192x2048 shapeCasts_S2048_S1x2048 shapeCasts_S8192x2048_S1x4x2048x2048)

/-- Every weakly fair execution terminates with the result at the dense linear layer of the arguments, and the
    arguments unchanged. -/
theorem run : θ_run defs (onTc (τ := τ) (main (F := Ideal))) ⟨m, fun _ => 0, ρ⟩ fun r => ∀ c : Dev nD,
      r.2.mem ((c.tc : Thread nD τ).loc main_v3)
        = affine (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v3 (Pipeline.mem_restRefs_of main_v3 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.Whole

end
-- ==== Proof.RefSide.lean ====
/-
  The reference, read one element at a time, is the specification.

  Its five operations compose to: the contraction of `X`'s last axis with `W`'s last axis, plus the bias broadcast
  along the batch and position axes, under a new leading axis of extent one. Read at (0, β, s, e) through the generated
  per-operation index maps this is  ∑ₖ X[β, s, k] · W[e, k] + b[e]  — the same sum, in the same order, as the specification.
-/
import proofs.«134843_g13804024889374_cont_week2b_70_4_alg».proof.Defs
import proofs.«134843_g13804024889374_cont_week2b_70_4_alg».proof.Proof.Gen.ReferenceIdeal.Run
import proofs.«134843_g13804024889374_cont_week2b_70_4_alg».proof.Proof.Gen.ReferenceIdeal.Read
import proofs.«134843_g13804024889374_cont_week2b_70_4_alg».proof.Proof.Spec

noncomputable section

open Idealize.ShloMosaic Idealize.ShloMosaic.ValueIdx

namespace Cert.ReferenceIdeal.RefValue

open Cert.ReferenceIdeal Cert.ReferenceIdeal.Read Cert.Linear

/-- The reference's result, as a function of its three arguments, is the specification. -/
theorem reference_eq (x0 : (⟨S4x2048x2048, .f32⟩ : BufTy).Contents (Elt Ideal)) (x1 : (⟨S2048x2048, .f32⟩ : BufTy).Contents (Elt Ideal))
    (x2 : (⟨S2048, .f32⟩ : BufTy).Contents (Elt Ideal)) :
    val_main_v4 (F := Ideal) x0 x1 x2 = affine x0 x1 x2 := by
  funext i
  rw [val_main_v4_apply, val_main_v3_apply, val_main_v0_apply, val_main_v2_apply, val_main_v1_apply]
  show (∑ k : Fin 2048, x0 (lidx_main_v0 (idx_main_v4 i) k) * x1 (ridx_main_v0 (idx_main_v4 i) k))
      + x2 (idx_main_v1 (idx_main_v2 (idx_main_v4 i)))
    = entry x0 x1 x2 ⟨(i 1).val, (i 1).isLt⟩ ⟨(i 2).val, (i 2).isLt⟩ ⟨(i 3).val, (i 3).isLt⟩
  unfold entry
  refine congrArg₂ (· + ·) (Finset.sum_congr rfl fun k _ => congrArg₂ (· * ·) (congrArg x0 ?_) (congrArg x1 ?_)) (congrArg x2 ?_)
  · funext a; match a with | ⟨0, _⟩ => rfl | ⟨1, _⟩ => rfl | ⟨2, _⟩ => rfl
  · funext a; match a with | ⟨0, _⟩ => rfl | ⟨1, _⟩ => rfl
  · funext a; match a with | ⟨0, _⟩ => rfl

end Cert.ReferenceIdeal.RefValue

end
-- ==== Proof.lean ====
/-
  The kernel computes a dense linear layer, out[0, β, s, e] = ∑ₖ X[β, s, k] · W[e, k] + b[e], and so does the reference.

  The kernel flattens `X` to 8192 rows and walks 16 row blocks of 512; at the first block it narrows the weight
  matrix to bf16 into a scratch matrix that stays for the later blocks; every block is the product of the row block with
  the transposed scratch matrix, accumulated from zero, plus the bias row; the 8192 × 2048 result is reshaped to
  [1, 4, 2048, 2048]. Over the extended reals the narrowing is the identity and the product is the plain sum over the
  contracted axis, so each entry is the sum above (Pieces, Carried, Payload, Blocks, Whole). The reference contracts the
  last axes of `X` and `W` directly, adds the broadcast bias and prepends a unit axis: the same sum, entry by entry
  (RefSide). The two sides are equal by re-indexing alone — no distributivity, no cancelling —, so the finiteness of the
  inputs is never used. The ideal pass rewrote nothing, so there is nothing to preserve; the three frames are the
  generated frame runs (the reference's: its generated run with the result dropped).
-/
import proofs.«134843_g13804024889374_cont_week2b_70_4_alg».proof.Defs
import proofs.«134843_g13804024889374_cont_week2b_70_4_alg».proof.Proof.Gen.Kernel
import proofs.«134843_g13804024889374_cont_week2b_70_4_alg».proof.Proof.Gen.Kernel.Skeleton
import proofs.«134843_g13804024889374_cont_week2b_70_4_alg».proof.Proof.Gen.Kernel.Launch
import proofs.«134843_g13804024889374_cont_week2b_70_4_alg».proof.Proof.Gen.Kernel.Points
import proofs.«134843_g13804024889374_cont_week2b_70_4_alg».proof.Proof.Gen.Kernel.Frame
import proofs.«134843_g13804024889374_cont_week2b_70_4_alg».proof.Proof.Gen.KernelIdeal
import proofs.«134843_g13804024889374_cont_week2b_70_4_alg».proof.Proof.Gen.KernelIdeal.Skeleton
import proofs.«134843_g13804024889374_cont_week2b_70_4_alg».proof.Proof.Gen.KernelIdeal.Launch
import proofs.«134843_g13804024889374_cont_week2b_70_4_alg».proof.Proof.Gen.KernelIdeal.Points
import proofs.«134843_g13804024889374_cont_week2b_70_4_alg».proof.Proof.Gen.KernelIdeal.Frame
import proofs.«134843_g13804024889374_cont_week2b_70_4_alg».proof.Proof.Gen.ReferenceIdeal
import proofs.«134843_g13804024889374_cont_week2b_70_4_alg».proof.Proof.Gen.ReferenceIdeal.Run
import proofs.«134843_g13804024889374_cont_week2b_70_4_alg».proof.Proof.Gen.ReferenceIdeal.Read
import proofs.«134843_g13804024889374_cont_week2b_70_4_alg».proof.Proof.Gen.Pre_finite_inputs
import proofs.«134843_g13804024889374_cont_week2b_70_4_alg».proof.Proof.Whole
import proofs.«134843_g13804024889374_cont_week2b_70_4_alg».proof.Proof.RefSide
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs, from memories agreeing on the three arguments, end with the dense linear layer of those arguments. -/
theorem algebraic : Cert.algebraic_KernelIdeal_ReferenceIdeal := by
  intro m ρ m' ρ' _ hagree
  refine ⟨fun c => Cert.Linear.affine
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Whole.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v4_eq, Cert.ReferenceIdeal.RefValue.reference_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
